-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S3x16384 : Shape := ⟨2, ![3, 16384]⟩
abbrev S32x1x512 : Shape := ⟨3, ![32, 1, 512]⟩
abbrev S2x1x16384 : Shape := ⟨3, ![2, 1, 16384]⟩
abbrev S512x3 : Shape := ⟨2, ![512, 3]⟩
abbrev S1x1x512 : Shape := ⟨3, ![1, 1, 512]⟩
abbrev S1x1x16384 : Shape := ⟨3, ![1, 1, 16384]⟩
abbrev S1x16384 : Shape := ⟨2, ![1, 16384]⟩
abbrev S512 : Shape := ⟨1, ![512]⟩
abbrev S512x1 : Shape := ⟨2, ![512, 1]⟩
abbrev S3x1024 : Shape := ⟨2, ![3, 1024]⟩
abbrev S1024 : Shape := ⟨1, ![1024]⟩
abbrev S1x1024 : Shape := ⟨2, ![1, 1024]⟩
abbrev S512x1024 : Shape := ⟨2, ![512, 1024]⟩
abbrev S16384 : Shape := ⟨1, ![16384]⟩
abbrev S2x16384 : Shape := ⟨2, ![2, 16384]⟩
abbrev S_ : Shape := ⟨0, ![]⟩

abbrev nBuf : Space → Nat
  | .hbm => 18
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S3x16384, .f32⟩
  | .hbm, ⟨3, _⟩ => ⟨S32x1x512, .f32⟩
  | .hbm, ⟨4, _⟩ => ⟨S2x1x16384, .f32⟩
  | .hbm, ⟨5, _⟩ => ⟨S16384, .f32⟩
  | .hbm, ⟨6, _⟩ => ⟨S2x16384, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S3x16384, .f32⟩
  | .local _ .vmem, ⟨3, _⟩ => ⟨S1x1x512, .f32⟩
  | .local _ .vmem, ⟨4, _⟩ => ⟨S1x1x512, .f32⟩
  | .local _ .vmem, ⟨5, _⟩ => ⟨S1x1x16384, .f32⟩
  | .local _ .vmem, ⟨6, _⟩ => ⟨S1x1x16384, .f32⟩
  | .local _ .vmem, ⟨7, _⟩ => ⟨S1x16384, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_3 : BitVec 32 := 0#32
  let c16_i32 : BitVec 32 := 16#32
  let v8 : BitVec 32 := Scalar.addi c0_i32_3 c16_i32
  let c1_i32 : BitVec 32 := 1#32
  ⟨c0_i32_3, v8, c1_i32⟩
def k0_mult1 (k0_t1 : Fin k0_t1_loop.trips) : BitVec 32 :=
  let c0_i32_3 : BitVec 32 := 0#32
  let c1_i32 : BitVec 32 := 1#32
  let arg7 : BitVec 32 := Scf.iv c0_i32_3 c1_i32 k0_t1
  let c1024_i32 : BitVec 32 := 1024#32
  let v15 : BitVec 32 := Scalar.muli arg7 c1024_i32
  v15
def k0_off1 (k0_t1 : Fin k0_t1_loop.trips) : Fin 2 → Nat :=
  let c0_13 : Index := 0#32
  let c0_i32_3 : BitVec 32 := 0#32
  let c1_i32 : BitVec 32 := 1#32
  let arg7 : BitVec 32 := Scf.iv c0_i32_3 c1_i32 k0_t1
  let c1024_i32 : BitVec 32 := 1024#32
  let v15 : BitVec 32 := Scalar.muli arg7 c1024_i32
  let v16 : BitVec 32 := v15
  let v17 : Index := Scalar.indexCast v16
  ![0, v17.toNat]
def k0_off2 (k0_t1 : Fin k0_t1_loop.trips) : Fin 2 → Nat :=
  let c0_20 : Index := 0#32
  let c0_i32_3 : BitVec 32 := 0#32
  let c1_i32 : BitVec 32 := 1#32
  let arg7 : BitVec 32 := Scf.iv c0_i32_3 c1_i32 k0_t1
  let c1024_i32 : BitVec 32 := 1024#32
  let v15 : BitVec 32 := Scalar.muli arg7 c1024_i32
  let v16 : BitVec 32 := v15
  let v36 : Index := Scalar.indexCast v16
  ![0, v36.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16384x3_S3x16384_1_0 : S16384x3.Transposes [1, 0] S3x16384
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  inb_S512x3_S512x3_0_0 : ∀ a, (![0, 0] : Fin 2 → Nat) a + S512x3.size a ≤ S512x3.size a
  h_S512x3 : 0 < S512x3.numel
  reduces_S512x3_S512 : S512x3.Reduces [1] S512
  shapeCasts_S512_S512x1 : S512.ShapeCasts S512x1
  h_S3x1024 : 0 < S3x1024.numel
  shapeCasts_S3x1024_S3x1024 : S3x1024.ShapeCasts S3x1024
  reduces_S3x1024_S1024 : S3x1024.Reduces [0] S1024
  shapeCasts_S1024_S1x1024 : S1024.ShapeCasts S1x1024
  broadcasts_S512x1_S512x1024 : S512x1.Broadcasts S512x1024
  broadcasts_S1x1024_S512x1024 : S1x1024.Broadcasts S512x1024
  reduces_S512x1024_S512 : S512x1024.Reduces [1] S512
  reduces_S512x1024_S1024 : S512x1024.Reduces [0] S1024
  h_S1x1024 : 0 < S1x1024.numel
  shapeCasts_S1x1024_S1x1024 : S1x1024.ShapeCasts S1x1024
  shapeCasts_S512x1_S1x1x512 : S512x1.ShapeCasts S1x1x512
  inb_S1x1x512_S1x1x512_0_0_0 : ∀ a, (![0, 0, 0] : Fin 3 → Nat) a + S1x1x512.size a ≤ S1x1x512.size a
  h_S1x1x512 : 0 < S1x1x512.numel
  shapeCasts_S1x16384_S1x1x16384 : S1x16384.ShapeCasts S1x1x16384
  inb_S1x1x16384_S1x1x16384_0_0_0 : ∀ a, (![0, 0, 0] : Fin 3 → Nat) a + S1x1x16384.size a ≤ S1x1x16384.size a
  h_S1x1x16384 : 0 < S1x1x16384.numel
  shapeCasts_S32x1x512_S16384 : S32x1x512.ShapeCasts S16384
  shapeCasts_S2x1x16384_S2x16384 : S2x1x16384.ShapeCasts S2x16384
  reducesTo_S2x16384_S16384_d0 : S2x16384.ReducesTo [0] S16384
  h_S_ : 0 < S_.numel
  reducesTo_S16384_S_d0 : S16384.ReducesTo [0] S_
  dot_S512x3_S3x1024_S512x1024_1_0_0_1_n_n_wf : DotDims.WF S512x3 S3x1024 S512x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S3x1024.size a ≤ S3x16384.size a
  k0_off2_inb : ∀ k0_t1 : Fin k0_t1_loop.trips, ∀ a, (k0_off2 k0_t1) a + S1x1024.size a ≤ S1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S16384x3.size a
  hwx0_0 : ∀ i : grid0.Coords, EltTy.bits .f32 = 32 ∨ (Rect.block (s := S16384x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x16384.size a
  hwx0_1 : ∀ i : grid0.Coords, EltTy.bits .f32 = 32 ∨ (Rect.block (s := S3x16384) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .f32 = 32 ∨ (Rect.block (s := S32x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x16384.size a ≤ S2x1x16384.size a
  hwx0_3 : ∀ i : grid0.Coords, EltTy.bits .f32 = 32 ∨ (Rect.block (s := S2x1x16384) S1x1x16384.size (cc0_transform_3 i) (hinb0_3 i)).WholeWords (EltTy.packing .f32)

variable [Facts₀]

def dot_S512x3_S3x1024_S512x1024_1_0_0_1_n_n : DotDims S512x3 S3x1024 S512x1024 where
  lhsContracting := [1]
  rhsContracting := [0]
  lhsNonContracting := [0]
  rhsNonContracting := [1]
  lhsBatch := []
  rhsBatch := []
  wf := dot_S512x3_S3x1024_S512x1024_1_0_0_1_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S3x16384 : Shape := ⟨2, ![3, 16384]⟩
abbrev S16384x16384 : Shape := ⟨2, ![16384, 16384]⟩
abbrev S16384x1 : Shape := ⟨2, ![16384, 1]⟩
abbrev S1x16384 : Shape := ⟨2, ![1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x3, .f32⟩
  | .hbm, ⟨6, _⟩ => ⟨S_, .f32⟩
  | .hbm, ⟨7, _⟩ => ⟨S16384, .f32⟩
  | .hbm, ⟨8, _⟩ => ⟨S3x16384, .f32⟩
  | .hbm, ⟨9, _⟩ => ⟨S16384x16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  transposes_S16384x3_S3x16384_1_0 : S16384x3.Transposes [1, 0] S3x16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d0 : S16384x16384.ReducesTo [0] S16384
  reducesTo_S16384_S_d0 : S16384.ReducesTo [0] S_
  reducesTo_S16384x16384_S16384_d1 : S16384x16384.ReducesTo [1] S16384
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.LibMinRead.lean ====
/-
  Minimum reductions at the exact (extended-real) instance, read at an index by their lower bounds, and the index
  lemmas that go with them.  A minimum-reduction over one axis is a fold of `min` from the accumulator's value over that
  axis's coordinates; from the f32 pattern of +∞ (the top of the extended reals) the numbers below the fold are exactly
  the numbers below every folded entry, which is the form in which minima over differently cut index sets are compared.
  Also: the index a single-axis reduction of an `[m, n]` block reads (row or column put back), and a vector `[a]` cast
  to a column `[a, 1]`.  Generic in the extents.
-/
import Idealize.ShloMosaic.Lib.ValueIdx
import Idealize.ShloMosaic.Lib.Pipeline.Value
import Idealize.ShloMosaic.PureOps.Ideal.Laws

noncomputable section

namespace Idealize.ShloMosaic.MinRead

open Idealize.ShloMosaic Idealize.ShloMosaic.ValueIdx
open scoped BigOperators

/-- The f32 pattern of +∞ is the top of the extended reals. -/
theorem pinf_eq_top : Ideal.ofBits .f32 0x7F800000#32 = (⊤ : EReal) := by
  simp [Ideal.ofBits, Ideal.ieee]

/-- A minimum-reduction over ONE axis, at the exact instance: the fold of `min` from the accumulator's value over
    that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Below a fold of `min` over every coordinate from +∞: below every entry. -/
theorem le_fold_min_top {ι : Type} [Fintype ι] (f : ι → EReal) (z : EReal) :
    z ≤ (Finset.univ : Finset ι).fold min (Ideal.ofBits .f32 0x7F800000#32) f ↔ ∀ i, z ≤ f i := by
  rw [Finset.le_fold_min, pinf_eq_top]
  exact ⟨fun h i => h.2 i (Finset.mem_univ i), fun h => ⟨le_top, fun i _ => h i⟩⟩

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A reduced index `r` of an `[m, n]` block summed along its rows, with the column `k` put back, is `(r, k)`. -/
theorem lift1_ix2 {m n : Nat} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- A reduced index `q` of an `[m, n]` block summed down its columns, with the row `k` put back, is `(k, q)`. -/
theorem lift0_ix2 {m n : Nat} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

end Idealize.ShloMosaic.MinRead

end
-- ==== Proof.Spec.lean ====
/-
  The clamped squared distance between a row of a left block (rows × 3) and a column of a right block (3 × columns),
  as both programs spell it: max ((|a|² + |b|²) − 2·⟨a, b⟩, 0), each of the three terms a sum over the three
  coordinates.
-/
import proofs.«101809_j9861244912360_2_alg».proof.Proof.LibMinRead

noncomputable section

namespace Cert.Chamfer

open Idealize.ShloMosaic Idealize.ShloMosaic.ValueIdx Idealize.ShloMosaic.MinRead
open scoped BigOperators

/-- The clamped squared distance between row `r` of `x0` and column `c` of `x1`. -/
def dBlk {M N : Nat} (x0 : (⟨2, ![M, 3]⟩ : Shape).Idx → EReal) (x1 : (⟨2, ![3, N]⟩ : Shape).Idx → EReal)
    (r : Fin M) (c : Fin N) : EReal :=
  max ((∑ k : Fin 3, x0 (ix2 r k) * x0 (ix2 r k) + ∑ k : Fin 3, x1 (ix2 k c) * x1 (ix2 k c))
        - Ideal.ofBits .f32 0x40000000#32 * ∑ k : Fin 3, x0 (ix2 r k) * x1 (ix2 k c))
      (Ideal.ofBits .f32 0x00000000#32)

end Cert.Chamfer

end
-- ==== Proof.LibMatmul.lean ====
/-
  A row-by-column matrix product into a zero accumulator, read at an index of the result: entry (r, c) of an
  M×K by K×N product is the sum over the contracted coordinate k of left (r, k) times right (k, c).
  Stated for any dimension numbers that contract the left operand's second axis with the right operand's
  first and have no batch axes, at the exact (extended-real) instance, where the product carries no rounding.
-/
import Idealize.ShloMosaic.Lib.ValueIdx
import Idealize.ShloMosaic.Lib.Pipeline.Value
import Idealize.ShloMosaic.PureOps.Ideal.Laws

noncomputable section

namespace Idealize.ShloMosaic.MatmulRead

open Idealize.ShloMosaic Idealize.ShloMosaic.ValueIdx
open scoped BigOperators

/-- Entry (r, c) of the product of an M×K block by a K×N block accumulated into zeros is
    `∑ k, left (r, k) * right (k, c)`. -/
theorem matmul_zero_apply {M K N : Nat} {φ₁ φ₂ : FTy}
    (lc : List (Fin 2)) (rc : List (Fin 2)) (ln : List (Fin 2)) (rn : List (Fin 2)) (lb rb : List (Fin 2))
    (h1 : lc = [1]) (h2 : rc = [0]) (h3 : ln = [0]) (h4 : rn = [1]) (h5 : lb = []) (h6 : rb = [])
    (wf : DotDims.WF ⟨2, ![M, K]⟩ ⟨2, ![K, N]⟩ ⟨2, ![M, N]⟩ lc rc ln rn lb rb)
    (prec : Option ContractPrecision)
    (lhs : FVec Ideal ⟨2, ![M, K]⟩ φ₁) (rhs : FVec Ideal ⟨2, ![K, N]⟩ φ₂) (j : (⟨2, ![M, N]⟩ : Shape).Idx) :
    FloatOps.matmul (⟨lc, rc, ln, rn, lb, rb, wf⟩ : DotDims ⟨2, ![M, K]⟩ ⟨2, ![K, N]⟩ ⟨2, ![M, N]⟩) prec lhs rhs
        (constant ⟨2, ![M, N]⟩ .f32 0x00000000#32) j
      = ∑ k : Fin K, lhs (ix2 (j 0) k) * rhs (ix2 k (j 1)) := by
  subst h1 h2 h3 h4 h5 h6
  set d : DotDims ⟨2, ![M, K]⟩ ⟨2, ![K, N]⟩ ⟨2, ![M, N]⟩ := ⟨[1], [0], [0], [1], [], [], wf⟩ with hd
  rw [Ideal.matmul_constant_zero_apply, ← Equiv.sum_comp (contrEquiv1 d K rfl rfl).symm]
  refine Finset.sum_congr rfl fun k _ => ?_
  have hk := contrEquiv1_symm_val d K rfl rfl k
  have el : d.lhsIdx j ((contrEquiv1 d K rfl rfl).symm k) = ix2 (j 0) k := funext fun a => Fin.ext (by
    match a with
    | ⟨0, _⟩ =>
      show (d.lhsIdx j _ 0).val = (j 0).val
      unfold DotDims.lhsIdx
      rw [dif_neg (show ¬(0 : Fin 2) ∈ d.lhsBatch by simp [hd]), dif_pos (show (0 : Fin 2) ∈ d.lhsNonContracting by simp [hd])]
      rfl
    | ⟨1, _⟩ => exact (d.lhsIdx_val_of_single (cl := 1) rfl j _).trans hk)
  have er : d.rhsIdx j ((contrEquiv1 d K rfl rfl).symm k) = ix2 k (j 1) := funext fun a => Fin.ext (by
    match a with
    | ⟨0, _⟩ => exact (d.rhsIdx_val_of_single (cr := 0) rfl j _).trans hk
    | ⟨1, _⟩ =>
      show (d.rhsIdx j _ 1).val = (j 1).val
      unfold DotDims.rhsIdx
      rw [dif_neg (show ¬(1 : Fin 2) ∈ d.rhsBatch by simp [hd]), dif_pos (show (1 : Fin 2) ∈ d.rhsNonContracting by simp [hd])]
      rfl)
  rw [el, er]
  rfl

/-- A column `[a, 1]` broadcast to `[a, b]` reads, at `(p, c)`, the column's entry `p`. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.MatmulRead

end
-- ==== Proof.Payload.lean ====
/-
  The kernel body's arithmetic read at an index, at the exact instance.
-/
import proofs.«101809_j9861244912360_2_alg».proof.Proof.Gen.KernelIdeal.Skeleton
import proofs.«101809_j9861244912360_2_alg».proof.Proof.Spec
import proofs.«101809_j9861244912360_2_alg».proof.Proof.LibMatmul
import Idealize.ShloMosaic.Lib.ValueLayout

noncomputable section

namespace Cert.KernelIdeal.Pay

open Idealize.ShloMosaic Idealize.ShloMosaic.ValueIdx Idealize.ShloMosaic.MinRead Cert.KernelIdeal Cert.KernelIdeal.Gen Cert.Chamfer
open scoped BigOperators

theorem pay3_apply (v3 : Vec Ideal S512x3 .f32) (v18 : Vec Ideal S3x1024 .f32) (r : Fin 512) (q : Fin 1024) :
    k0_pay3 (F := Ideal) v3 v18 (ix2 r q) = dBlk v3 v18 r q := by
  unfold k0_pay3 dBlk
  dsimp only
  rw [maximumf_apply, subf_apply, addf_apply, mulf_apply, broadcast_apply, broadcast_apply]
  rw [MatmulRead.broadcastTo_a1_ab_apply, broadcastTo_1b_ab_apply, shapeCast_a_a1_apply, shapeCast_a_1a_apply]
  rw [shapeCast_self]
  have hm := MatmulRead.matmul_zero_apply (φ₁ := .f32) (φ₂ := .f32) [1] [0] [0] [1] [] [] rfl rfl rfl rfl rfl rfl
    Facts₀.dot_S512x3_S3x1024_S512x1024_1_0_0_1_n_n_wf (some .fp32) v3 v18 (ix2 r q)
  refine congrArg₂ max (congrArg₂ (· - ·) (congrArg₂ (· + ·) ?_ ?_) (congrArg₂ (· * ·) rfl hm)) rfl
  · refine (Ideal.multiReduction_add_single (mulf v3 v3) 0x00000000#32 Facts₀.reduces_S512x3_S512 (.inl rfl) rfl (ix1 r)).trans ?_
    exact Finset.sum_congr rfl fun k _ => by rw [lift1_ix2]; rfl
  · refine (Ideal.multiReduction_add_single (mulf v18 v18) 0x00000000#32 Facts₀.reduces_S3x1024_S1024 (.inl rfl) rfl (ix1 q)).trans ?_
    exact Finset.sum_congr rfl fun k _ => by rw [lift0_ix2]; rfl

/-- Below the running row minimum after one more chunk: below the carried value and below the distance to every column of
    the chunk. -/
theorem pay5_le (v3 : Vec Ideal S512x3 .f32) (arg8 : FVec Ideal S512x1 .f32) (v18 : Vec Ideal S3x1024 .f32)
    (r : Fin 512) (u : Fin 1) (z : EReal) :
    z ≤ k0_pay5 (F := Ideal) v3 arg8 v18 (ix2 r u) ↔ z ≤ arg8 (ix2 r u) ∧ ∀ q : Fin 1024, z ≤ dBlk v3 v18 r q := by
  unfold k0_pay5
  dsimp only
  rw [minimumf_apply, shapeCast_a_a1_apply, le_min_iff]
  refine and_congr Iff.rfl ?_
  have e := multiReduction_minimumf_single (k0_pay3 (F := Ideal) v3 v18) 0x7F800000#32 Facts₀.reduces_S512x1024_S512 (.inl rfl) rfl (ix1 r)
  refine (iff_of_eq (congrArg (fun y => z ≤ y) e)).trans ?_
  refine (le_fold_min_top _ z).trans ?_
  refine forall_congr' fun q => ?_
  rw [Function.comp_apply, lift1_ix2, pay3_apply]
  exact Iff.rfl

/-- Below the running column minimum after one more block of rows: below what the scratch held and below the distance
    from every row of the block. -/
theorem pay4_le (v3 : Vec Ideal S512x3 .f32) (v18 : Vec Ideal S3x1024 .f32) (v37 : Vec Ideal S1x1024 .f32)
    (u : Fin 1) (q : Fin 1024) (z : EReal) :
    z ≤ k0_pay4 (F := Ideal) v3 v18 v37 (ix2 u q) ↔ z ≤ v37 (ix2 u q) ∧ ∀ r : Fin 512, z ≤ dBlk v3 v18 r q := by
  unfold k0_pay4
  dsimp only
  rw [shapeCast_self, minimumf_apply, shapeCast_a_1a_apply, le_min_iff]
  refine and_congr Iff.rfl ?_
  have e := multiReduction_minimumf_single (k0_pay3 (F := Ideal) v3 v18) 0x7F800000#32 Facts₀.reduces_S512x1024_S1024 (.inl rfl) rfl (ix1 q)
  refine (iff_of_eq (congrArg (fun y => z ≤ y) e)).trans ?_
  refine (le_fold_min_top _ z).trans ?_
  refine forall_congr' fun r => ?_
  rw [Function.comp_apply, lift0_ix2, pay3_apply]
  exact Iff.rfl

variable {F : FTy → Type} [FloatOps F]

/-- The row result laid out as `[1, 1, 512]` reads, at `(·, ·, r)`, the column vector at `(r, 0)`. -/
theorem pay6_apply (v9 : FVec F S512x1 .f32) (u1 u2 : Fin 1) (r : Fin 512) :
    k0_pay6 (F := F) v9 (ix3 u1 u2 r) = v9 (ix2 r (0 : Fin 1)) := by
  unfold k0_pay6
  exact shapeCast_apply v9 _ _ _ (by
    have h1 : u1.val = 0 := by omega
    have h2 : u2.val = 0 := by omega
    rw [Shape.rowMajor_val_three, Shape.rowMajor_val_two]
    show r.val * 1 + 0 = (u1.val * 1 + u2.val) * 512 + r.val
    omega)

/-- The scratch row laid out as `[1, 1, 16384]` reads, at `(·, u, c)`, the row at `(u, c)`. -/
theorem pay7_apply (v12 : Vec F S1x16384 .f32) (u1 u2 : Fin 1) (mc : Fin 16384) :
    k0_pay7 (F := F) v12 (ix3 u1 u2 mc) = v12 (ix2 u2 mc) := by
  unfold k0_pay7
  exact shapeCast_ab_1ab_apply v12 _ u1 u2 mc

/-- The fill of the scratch row is +∞ everywhere. -/
theorem pay1_apply (j : S1x16384.Idx) : k0_pay1 (F := Ideal) j = Ideal.ofBits .f32 0x7F800000#32 := by
  unfold k0_pay1
  rw [shapeCast_self]
  rfl

/-- The row accumulator starts at +∞ everywhere. -/
theorem pay2_apply (j : S512x1.Idx) : k0_pay2 (F := Ideal) j = Ideal.ofBits .f32 0x7F800000#32 := rfl

/-- The distance to a column of a chunk of the right block is the distance to that column of the whole block. -/
theorem dBlk_chunk {M N N' : Nat} (x0 : (⟨2, ![M, 3]⟩ : Shape).Idx → EReal) (x1 : (⟨2, ![3, N]⟩ : Shape).Idx → EReal)
    (v : (⟨2, ![3, N']⟩ : Shape).Idx → EReal) (q : Fin N') (mc : Fin N) (hv : ∀ kk : Fin 3, v (ix2 kk q) = x1 (ix2 kk mc))
    (r : Fin M) : dBlk x0 v r q = dBlk x0 x1 r mc := by
  unfold dBlk
  simp only [hv]

end Cert.KernelIdeal.Pay

end
-- ==== Proof.LoopState.lean ====
/-
  The chunk loop of the kernel body.  One trip loads a chunk of 1024 columns of the right block and the same columns of
  the scratch row, and stores back, over those columns, the minimum of what the scratch held and of the distances from
  the 512 rows of the left block; it yields the minimum of the carried column and of the distances to the chunk's columns.
  So before trip k the carried value at row r is the minimum of the initial value and of the distances to the columns
  below 1024·k, and the scratch at column c is, for c below 1024·k, the minimum of its entry contents and of the distances
  from every row, and its entry contents elsewhere.  Minima are stated by their lower bounds.
-/
import proofs.«101809_j9861244912360_2_alg».proof.Proof.Gen.KernelIdeal.Loops
import proofs.«101809_j9861244912360_2_alg».proof.Proof.Payload
import Idealize.ShloMosaic.Lib.WritesUnit

set_option maxRecDepth 16384

noncomputable section

namespace Cert.KernelIdeal.LoopVal

open Idealize.ShloMosaic Idealize.ShloMosaic.TcCoe Idealize.SL.Sem Idealize.ShloMosaic.ValueIdx
open Cert.KernelIdeal Cert.KernelIdeal.Gen Cert.Chamfer Cert.KernelIdeal.Pay

theorem trips_eq : k0_t1_loop.trips = 16 := by decide

section Open

variable {F : FTy → Type} [FloatOps F]
variable (𝒱 : Variants) (c : Dev nD) (bd : Option 𝒱.V) (i : grid0.Coords) (arg2 : Memref sig .tc .vmem S512x3 .f32) (harg2 : arg2.IsWhole) (arg3 : Memref sig .tc .vmem S3x16384 .f32) (harg3 : arg3.IsWhole) (arg4 : Memref sig .tc .vmem S1x1x512 .f32) (harg4 : arg4.IsWhole) (arg5 : Memref sig .tc .vmem S1x1x16384 .f32) (harg5 : arg5.IsWhole) (arg6 : Memref sig .tc .vmem S1x16384 .f32) (harg6 : arg6.IsWhole)
  (v3 : Vec F S512x3 .f32) (X_arg3 : BufTy.Contents (Elt F) arg3.view.ty)

/-- What one trip yields: the running row minimum over the chunk it loaded. -/
theorem tripR_eq (k : Fin k0_t1_loop.trips) (acc : FVec F S512x1 .f32) (f : BufTy.Contents (Elt F) arg6.view.ty) :
    tripR_k0_t1 (F := F) 𝒱 c bd i arg2 harg2 arg3 harg3 arg4 harg4 arg5 harg5 arg6 harg6 v3 X_arg3 k acc f
      = k0_pay5 v3 acc (arg3.view.readAt (Elt F) (Rect.unit (s := S3x16384) (k0_off1 k) S3x1024.size (Facts₀.k0_off1_inb k)).toLoadRect X_arg3) := by
  unfold tripR_k0_t1; unfold trip_k0_t1; rfl

/-- What one trip stores: one piece, over the chunk's columns of the scratch row. -/
theorem tripL_eq (k : Fin k0_t1_loop.trips) (acc : FVec F S512x1 .f32) (f : BufTy.Contents (Elt F) arg6.view.ty) :
    tripL_k0_t1 (F := F) 𝒱 c bd i arg2 harg2 arg3 harg3 arg4 harg4 arg5 harg5 arg6 harg6 v3 X_arg3 k acc f
      = [⟨Rect.unit (s := S1x16384) (k0_off2 k) S1x1024.size (Facts₀.k0_off2_inb k),
          k0_pay4 v3 (arg3.view.readAt (Elt F) (Rect.unit (s := S3x16384) (k0_off1 k) S3x1024.size (Facts₀.k0_off1_inb k)).toLoadRect X_arg3)
            (arg6.view.readAt (Elt F) (Rect.unit (s := S1x16384) (k0_off2 k) S1x1024.size (Facts₀.k0_off2_inb k)).toLoadRect f)⟩] := by
  unfold tripL_k0_t1; unfold trip_k0_t1; rfl

end Open

section State

variable (𝒱 : Variants) (c : Dev nD) (bd : Option 𝒱.V) (i : grid0.Coords) (arg2 : Memref sig .tc .vmem S512x3 .f32) (harg2 : arg2.IsWhole) (arg3 : Memref sig .tc .vmem S3x16384 .f32) (harg3 : arg3.IsWhole) (arg4 : Memref sig .tc .vmem S1x1x512 .f32) (harg4 : arg4.IsWhole) (arg5 : Memref sig .tc .vmem S1x1x16384 .f32) (harg5 : arg5.IsWhole) (arg6 : Memref sig .tc .vmem S1x16384 .f32) (harg6 : arg6.IsWhole)
  (v3 : Vec Ideal S512x3 .f32) (X_arg3 : BufTy.Contents (Elt Ideal) arg3.view.ty)
  (G : BufTy.Contents (Elt Ideal) arg6.view.ty) (init : FVec Ideal S512x1 .f32)

/-- The chunk of the right block a trip loads, by columns: column `q` of trip `k`'s chunk is column `1024·k + q`. -/
theorem chunk_apply (k : Fin k0_t1_loop.trips) (kk : Fin 3) (q : Fin 1024) (mc : Fin 16384) (hmc : mc.val = 1024 * k.val + q.val) :
    arg3.view.readAt (Elt Ideal) (Rect.unit (s := S3x16384) (k0_off1 k) S3x1024.size (Facts₀.k0_off1_inb k)).toLoadRect X_arg3 (ix2 kk q)
      = arg3.view.read (Elt Ideal) X_arg3 (ix2 kk mc) := by
  rw [View.readAt_apply]
  refine congrArg (arg3.view.read (Elt Ideal) X_arg3) (funext fun a => Fin.ext ?_)
  match a with
  | ⟨0, _⟩ =>
    show (k0_off1 k) 0 + 1 * kk.val = kk.val
    rw [show (k0_off1 k) 0 = 0 from congrFun (k0_off1_eq k) 0]; omega
  | ⟨1, _⟩ =>
    show (k0_off1 k) 1 + 1 * q.val = mc.val
    rw [show (k0_off1 k) 1 = 1024 * k.val from congrFun (k0_off1_eq k) 1]; omega

/-- The chunk of the scratch row a trip loads, by columns. -/
theorem schunk_apply (k : Fin k0_t1_loop.trips) (f : BufTy.Contents (Elt Ideal) arg6.view.ty) (u : Fin 1) (q : Fin 1024)
    (mc : Fin 16384) (hmc : mc.val = 1024 * k.val + q.val) :
    arg6.view.readAt (Elt Ideal) (Rect.unit (s := S1x16384) (k0_off2 k) S1x1024.size (Facts₀.k0_off2_inb k)).toLoadRect f (ix2 u q)
      = arg6.view.read (Elt Ideal) f (ix2 u mc) := by
  rw [View.readAt_apply]
  refine congrArg (arg6.view.read (Elt Ideal) f) (funext fun a => Fin.ext ?_)
  match a with
  | ⟨0, _⟩ =>
    show (k0_off2 k) 0 + 1 * u.val = u.val
    rw [show (k0_off2 k) 0 = 0 from congrFun (k0_off2_eq k) 0]; omega
  | ⟨1, _⟩ =>
    show (k0_off2 k) 1 + 1 * q.val = mc.val
    rw [show (k0_off2 k) 1 = 1024 * k.val from congrFun (k0_off2_eq k) 1]; omega

local notation "stt" => st_k0_t1 (F := Ideal) 𝒱 c bd i arg2 harg2 arg3 harg3 arg4 harg4 arg5 harg5 arg6 harg6 v3 X_arg3 G init
local notation "x1" => arg3.view.read (Elt Ideal) X_arg3

/-- THE LOOP'S STATE before trip `k`, by lower bounds: the carried row minimum ranges over the columns below `1024·k`;
    the scratch row has taken, on those columns, the minimum over all 512 rows as well. -/
theorem state_lb (k : ℕ) (hk : k ≤ 16) :
    (∀ (r : Fin 512) (u : Fin 1) (z : EReal), z ≤ (stt k).1 (ix2 r u) ↔
        z ≤ init (ix2 r u) ∧ ∀ mc : Fin 16384, mc.val < 1024 * k → z ≤ dBlk v3 x1 r mc) ∧
    (∀ (u : Fin 1) (mc : Fin 16384) (z : EReal),
        z ≤ arg6.view.read (Elt Ideal) (arg6.view.writes (Elt Ideal) G (stt k).2) (ix2 u mc) ↔
        z ≤ arg6.view.read (Elt Ideal) G (ix2 u mc) ∧ (mc.val < 1024 * k → ∀ r : Fin 512, z ≤ dBlk v3 x1 r mc)) := by
  induction k with
  | zero =>
    refine ⟨fun r u z => ?_, fun u mc z => ?_⟩
    · show z ≤ init (ix2 r u) ↔ _
      exact ⟨fun h => ⟨h, fun mc hmc => absurd hmc (by omega)⟩, fun h => h.1⟩
    · show z ≤ arg6.view.read (Elt Ideal) G (ix2 u mc) ↔ _
      exact ⟨fun h => ⟨h, fun hmc => absurd hmc (by omega)⟩, fun h => h.1⟩
  | succ k ih =>
    obtain ⟨ihR, ihC⟩ := ih (by omega)
    have hkt : k < k0_t1_loop.trips := by rw [trips_eq]; omega
    have hs := st_k0_t1_succ (F := Ideal) 𝒱 c bd i arg2 harg2 arg3 harg3 arg4 harg4 arg5 harg5 arg6 harg6 v3 X_arg3 G init ⟨k, hkt⟩
    rw [tripR_eq, tripL_eq] at hs
    have hs' : stt (k + 1) = _ := hs
    have hd : ∀ (q : Fin 1024) (mc : Fin 16384), mc.val = 1024 * k + q.val → ∀ r : Fin 512,
        dBlk v3 (arg3.view.readAt (Elt Ideal) (Rect.unit (s := S3x16384) (k0_off1 ⟨k, hkt⟩) S3x1024.size (Facts₀.k0_off1_inb ⟨k, hkt⟩)).toLoadRect X_arg3) r q
          = dBlk v3 x1 r mc :=
      fun q mc h r => dBlk_chunk v3 x1 _ q mc (fun kk => chunk_apply arg3 X_arg3 ⟨k, hkt⟩ kk q mc h) r
    refine ⟨fun r u z => ?_, fun u mc z => ?_⟩
    · rw [hs']
      dsimp only
      rw [pay5_le, ihR]
      constructor
      · rintro ⟨⟨h0, h1⟩, h2⟩
        refine ⟨h0, fun mc hmc => ?_⟩
        by_cases h : mc.val < 1024 * k
        · exact h1 mc h
        · have := h2 ⟨mc.val - 1024 * k, by omega⟩
          rwa [hd _ mc (by show mc.val = 1024 * k + (mc.val - 1024 * k); omega)] at this
      · rintro ⟨h0, h1⟩
        refine ⟨⟨h0, fun mc h => h1 mc (by omega)⟩, fun q => ?_⟩
        have hq := q.isLt
        rw [hd q ⟨1024 * k + q.val, by omega⟩ rfl]
        exact h1 _ (by show 1024 * k + q.val < 1024 * (k + 1); omega)
    · rw [hs']
      dsimp only
      simp only [List.cons_append, List.nil_append]
      by_cases h : 1024 * k ≤ mc.val ∧ mc.val < 1024 * k + 1024
      · refine (iff_of_eq (congrArg (fun y => z ≤ y) (View.read_writes_cons_unit_of_mem arg6.view G
          (Facts₀.k0_off2_inb ⟨k, hkt⟩) _ _ (ix2 u mc) (ix2 u (⟨mc.val - 1024 * k, by omega⟩ : Fin 1024)) (k0_off2_eq ⟨k, hkt⟩)
          (Fin.forall_fin_two.mpr ⟨by show u.val = 0 + u.val; omega,
            by show mc.val = 1024 * k + (mc.val - 1024 * k); omega⟩)))).trans ?_
        rw [pay4_le, schunk_apply arg6 ⟨k, hkt⟩ _ u _ mc (by show mc.val = 1024 * k + (mc.val - 1024 * k); omega), ihC]
        constructor
        · rintro ⟨⟨h0, _⟩, h2⟩
          refine ⟨h0, fun _ r => ?_⟩
          have := h2 r
          rwa [hd _ mc (by show mc.val = 1024 * k + (mc.val - 1024 * k); omega)] at this
        · rintro ⟨h0, h1⟩
          refine ⟨⟨h0, fun hlt => absurd hlt (by omega)⟩, fun r => ?_⟩
          rw [hd _ mc (by show mc.val = 1024 * k + (mc.val - 1024 * k); omega)]
          exact h1 (by omega) r
      · refine (iff_of_eq (congrArg (fun y => z ≤ y) (View.read_writes_cons_unit_of_not_mem arg6.view G
          (Facts₀.k0_off2_inb ⟨k, hkt⟩) _ _ (ix2 u mc) (k0_off2_eq ⟨k, hkt⟩) (1 : Fin 2)
          (by show mc.val < 1024 * k ∨ 1024 * k + 1024 ≤ mc.val; omega)))).trans ?_
        rw [ihC]
        refine and_congr Iff.rfl ⟨fun h1 hlt => h1 (by omega), fun h1 hlt => h1 (by omega)⟩

end State

end Cert.KernelIdeal.LoopVal

end
-- ==== Proof.Pieces.lean ====
/-
  What one grid point's body leaves in its two output blocks and in the scratch row, read at an index.
  At a point that is the first of its core the scratch row is first filled with +∞; at any other it holds what the point
  before left.  After the chunk loop the row block holds, at row r, the minimum over all 16384 columns of the distance
  from row r of the left block; the scratch row (and the column block, a copy of it) holds, at column c, the minimum of
  its entry contents and of the distances from the 512 rows of the left block.  Minima are stated by their lower bounds.
-/
import proofs.«101809_j9861244912360_2_alg».proof.Proof.Gen.KernelIdeal.Frame
import proofs.«101809_j9861244912360_2_alg».proof.Proof.LoopState

set_option maxRecDepth 16384

noncomputable section

namespace Cert.KernelIdeal.Pieces

open Idealize.ShloMosaic Idealize.ShloMosaic.MinRead Idealize.ShloMosaic.TcCoe Idealize.SL.Sem Idealize.ShloMosaic.ValueIdx
open Cert.KernelIdeal Cert.KernelIdeal.Gen Cert.Chamfer Cert.KernelIdeal.Pay Cert.KernelIdeal.LoopVal

theorem hz2 : (![0, 0] : Fin 2 → Nat) = fun _ => 0 := by funext a; fin_cases a <;> rfl
theorem hz3 : (![0, 0, 0] : Fin 3 → Nat) = fun _ => 0 := by funext a; fin_cases a <;> rfl

section Open

variable {F : FTy → Type} [FloatOps F]

/-- A load of a whole buffer reads its contents. -/
theorem load_unread {S : Shape} {sp : Space} (m : Memref sig .tc sp S .f32) (h : m.IsWhole) (off : Fin S.rank → Nat)
    (hz : off = fun _ => 0) (inb : ∀ a, off a + S.size a ≤ S.size a) (X : S.Idx → Elt F .f32) :
    m.view.readAt (Elt F) (Rect.unit off S.size inb).toLoadRect (h.unread X) = X := by
  rw [View.readAt_eq_ld, h.read_unread, View.ld_unit_zero hz]

/-- After a store of a whole buffer, last, the buffer reads the stored value. -/
theorem read_whole_cons {S : Shape} {sp : Space} (v : View sig .tc sp S .f32) (f : v.ty.Contents (Elt F))
    (off : Fin S.rank → Nat) (hz : off = fun _ => 0) (inb : ∀ a, off a + S.size a ≤ S.size a)
    (w : (Rect.unit off S.size inb).shape.Idx → Elt F .f32) (L : List (View.Piece (Elt F) S .f32)) (y : S.Idx) :
    v.read (Elt F) (v.writes (Elt F) f ((⟨Rect.unit off S.size inb, w⟩ : View.Piece (Elt F) S .f32) :: L)) y = w y :=
  View.read_writes_cons_unit_of_mem v f inb w L y y rfl (fun a => by have h0 : off a = 0 := congrFun hz a; omega)

variable (c : Dev nD) (i : grid0.Coords) (arg2 : Memref sig .tc .vmem S512x3 .f32) (harg2 : arg2.IsWhole) (arg3 : Memref sig .tc .vmem S3x16384 .f32) (harg3 : arg3.IsWhole) (arg4 : Memref sig .tc .vmem S1x1x512 .f32) (harg4 : arg4.IsWhole) (arg5 : Memref sig .tc .vmem S1x1x16384 .f32) (harg5 : arg5.IsWhole) (arg6 : Memref sig .tc .vmem S1x16384 .f32) (harg6 : arg6.IsWhole)

/-- The pieces a point that is not the first of its core leaves: the row block, the column block, the scratch row. -/
theorem runB_1 (hc0 : ¬cond0_0 i) (x0 : Vec F S512x3 .f32) (x1 : Vec F S3x16384 .f32) (xs0 : Vec F S1x16384 .f32) :
    (kernelRun0_B c i arg2 harg2 arg3 harg3 arg4 harg4 arg5 harg5 arg6 harg6 hc0 x0 x1 xs0).1
      = [⟨Rect.unit (s := S1x1x512) ![0, 0, 0] S1x1x512.size Facts₀.inb_S1x1x512_S1x1x512_0_0_0,
          k0_pay6 (st_k0_t1 (F := F) Variants.none c none i arg2 harg2 arg3 harg3 arg4 harg4 arg5 harg5 arg6 harg6
    (arg2.view.readAt (Elt F) (Rect.unit (s := S512x3) ![0, 0] S512x3.size Facts₀.inb_S512x3_S512x3_0_0).toLoadRect (harg2.unread x0))
    (harg3.unread x1) (harg6.unread xs0) (k0_pay2 (F := F)) k0_t1_loop.trips).1⟩] := by
  unfold kernelRun0_B; rfl

theorem runB_2 (hc0 : ¬cond0_0 i) (x0 : Vec F S512x3 .f32) (x1 : Vec F S3x16384 .f32) (xs0 : Vec F S1x16384 .f32) :
    (kernelRun0_B c i arg2 harg2 arg3 harg3 arg4 harg4 arg5 harg5 arg6 harg6 hc0 x0 x1 xs0).2.1
      = [⟨Rect.unit (s := S1x1x16384) ![0, 0, 0] S1x1x16384.size Facts₀.inb_S1x1x16384_S1x1x16384_0_0_0,
          k0_pay7 (arg6.view.readAt (Elt F) (Rect.unit (s := S1x16384) ![0, 0] S1x16384.size Facts₀.inb_S1x16384_S1x16384_0_0).toLoadRect
            (arg6.view.writes (Elt F) (harg6.unread xs0)
              (st_k0_t1 (F := F) Variants.none c none i arg2 harg2 arg3 harg3 arg4 harg4 arg5 harg5 arg6 harg6
    (arg2.view.readAt (Elt F) (Rect.unit (s := S512x3) ![0, 0] S512x3.size Facts₀.inb_S512x3_S512x3_0_0).toLoadRect (harg2.unread x0))
    (harg3.unread x1) (harg6.unread xs0) (k0_pay2 (F := F)) k0_t1_loop.trips).2))⟩] := by
  unfold kernelRun0_B; unfold kernelRun0_B.sl.v12; rfl

theorem runB_3 (hc0 : ¬cond0_0 i) (x0 : Vec F S512x3 .f32) (x1 : Vec F S3x16384 .f32) (xs0 : Vec F S1x16384 .f32) :
    (kernelRun0_B c i arg2 harg2 arg3 harg3 arg4 harg4 arg5 harg5 arg6 harg6 hc0 x0 x1 xs0).2.2.1
      = (st_k0_t1 (F := F) Variants.none c none i arg2 harg2 arg3 harg3 arg4 harg4 arg5 harg5 arg6 harg6
    (arg2.view.readAt (Elt F) (Rect.unit (s := S512x3) ![0, 0] S512x3.size Facts₀.inb_S512x3_S512x3_0_0).toLoadRect (harg2.unread x0))
    (harg3.unread x1) (harg6.unread xs0) (k0_pay2 (F := F)) k0_t1_loop.trips).2 := by
  unfold kernelRun0_B; rfl

/-- The scratch row right after the +∞ fill of a core's first point. -/
abbrev filled : BufTy.Contents (Elt F) arg6.view.ty :=
  arg6.view.writes (Elt F) arg6.view.junk
    [⟨Rect.unit (s := S1x16384) ![0, 0] S1x16384.size Facts₀.inb_S1x16384_S1x16384_0_0, k0_pay1 (F := F)⟩]

/-- The pieces the first point of a core leaves. -/
theorem runA_1 (hc0 : cond0_0 i) (x0 : Vec F S512x3 .f32) (x1 : Vec F S3x16384 .f32) :
    (kernelRun0_A c i arg2 harg2 arg3 harg3 arg4 harg4 arg5 harg5 arg6 harg6 hc0 x0 x1).1
      = [⟨Rect.unit (s := S1x1x512) ![0, 0, 0] S1x1x512.size Facts₀.inb_S1x1x512_S1x1x512_0_0_0,
          k0_pay6 (st_k0_t1 (F := F) Variants.none c none i arg2 harg2 arg3 harg3 arg4 harg4 arg5 harg5 arg6 harg6
    (arg2.view.readAt (Elt F) (Rect.unit (s := S512x3) ![0, 0] S512x3.size Facts₀.inb_S512x3_S512x3_0_0).toLoadRect (harg2.unread x0))
    (harg3.unread x1) (filled (F := F) arg6) (k0_pay2 (F := F)) k0_t1_loop.trips).1⟩] := by
  unfold kernelRun0_A; unfold kernelRun0_A.sl.HS0_1; rfl

theorem runA_2 (hc0 : cond0_0 i) (x0 : Vec F S512x3 .f32) (x1 : Vec F S3x16384 .f32) :
    (kernelRun0_A c i arg2 harg2 arg3 harg3 arg4 harg4 arg5 harg5 arg6 harg6 hc0 x0 x1).2.1
      = [⟨Rect.unit (s := S1x1x16384) ![0, 0, 0] S1x1x16384.size Facts₀.inb_S1x1x16384_S1x1x16384_0_0_0,
          k0_pay7 (arg6.view.readAt (Elt F) (Rect.unit (s := S1x16384) ![0, 0] S1x16384.size Facts₀.inb_S1x16384_S1x16384_0_0).toLoadRect
            (arg6.view.writes (Elt F) arg6.view.junk
              ((st_k0_t1 (F := F) Variants.none c none i arg2 harg2 arg3 harg3 arg4 harg4 arg5 harg5 arg6 harg6
    (arg2.view.readAt (Elt F) (Rect.unit (s := S512x3) ![0, 0] S512x3.size Facts₀.inb_S512x3_S512x3_0_0).toLoadRect (harg2.unread x0))
    (harg3.unread x1) (filled (F := F) arg6) (k0_pay2 (F := F)) k0_t1_loop.trips).2
                ++ [⟨Rect.unit (s := S1x16384) ![0, 0] S1x16384.size Facts₀.inb_S1x16384_S1x16384_0_0, k0_pay1 (F := F)⟩])))⟩] := by
  unfold kernelRun0_A; unfold kernelRun0_A.sl.v12 kernelRun0_A.sl.HS0_1; rfl

theorem runA_3 (hc0 : cond0_0 i) (x0 : Vec F S512x3 .f32) (x1 : Vec F S3x16384 .f32) :
    (kernelRun0_A c i arg2 harg2 arg3 harg3 arg4 harg4 arg5 harg5 arg6 harg6 hc0 x0 x1).2.2.1
      = (st_k0_t1 (F := F) Variants.none c none i arg2 harg2 arg3 harg3 arg4 harg4 arg5 harg5 arg6 harg6
    (arg2.view.readAt (Elt F) (Rect.unit (s := S512x3) ![0, 0] S512x3.size Facts₀.inb_S512x3_S512x3_0_0).toLoadRect (harg2.unread x0))
    (harg3.unread x1) (filled (F := F) arg6) (k0_pay2 (F := F)) k0_t1_loop.trips).2
        ++ [⟨Rect.unit (s := S1x16384) ![0, 0] S1x16384.size Facts₀.inb_S1x16384_S1x16384_0_0, k0_pay1 (F := F)⟩] := by
  unfold kernelRun0_A; unfold kernelRun0_A.sl.HS0_1; rfl

end Open

section Val

variable (c : Dev nD) (i : grid0.Coords) (arg2 : Memref sig .tc .vmem S512x3 .f32) (harg2 : arg2.IsWhole) (arg3 : Memref sig .tc .vmem S3x16384 .f32) (harg3 : arg3.IsWhole) (arg4 : Memref sig .tc .vmem S1x1x512 .f32) (harg4 : arg4.IsWhole) (arg5 : Memref sig .tc .vmem S1x1x16384 .f32) (harg5 : arg5.IsWhole) (arg6 : Memref sig .tc .vmem S1x16384 .f32) (harg6 : arg6.IsWhole)
  (x0 : Vec Ideal S512x3 .f32) (x1 : Vec Ideal S3x16384 .f32)

set_option quotPrecheck false in
local notation "stX" G:max => st_k0_t1 (F := Ideal) Variants.none c none i arg2 harg2 arg3 harg3 arg4 harg4 arg5 harg5 arg6 harg6
    (arg2.view.readAt (Elt Ideal) (Rect.unit (s := S512x3) ![0, 0] S512x3.size Facts₀.inb_S512x3_S512x3_0_0).toLoadRect (harg2.unread x0))
    (harg3.unread x1) G (k0_pay2 (F := Ideal)) k0_t1_loop.trips

/-- The chunk loop's state at its exit, over any entry contents `G` of the scratch row. -/
theorem exit_lb (G : BufTy.Contents (Elt Ideal) arg6.view.ty) :
    (∀ (r : Fin 512) (u : Fin 1) (z : EReal), z ≤ (stX G).1 (ix2 r u) ↔ ∀ mc : Fin 16384, z ≤ dBlk x0 x1 r mc) ∧
    (∀ (u : Fin 1) (mc : Fin 16384) (z : EReal),
      z ≤ arg6.view.read (Elt Ideal) (arg6.view.writes (Elt Ideal) G (stX G).2) (ix2 u mc) ↔
      z ≤ arg6.view.read (Elt Ideal) G (ix2 u mc) ∧ ∀ r : Fin 512, z ≤ dBlk x0 x1 r mc) := by
  have h := state_lb Variants.none c none i arg2 harg2 arg3 harg3 arg4 harg4 arg5 harg5 arg6 harg6
    (arg2.view.readAt (Elt Ideal) (Rect.unit (s := S512x3) ![0, 0] S512x3.size Facts₀.inb_S512x3_S512x3_0_0).toLoadRect (harg2.unread x0))
    (harg3.unread x1) G (k0_pay2 (F := Ideal)) 16 le_rfl
  rw [trips_eq]
  obtain ⟨hR, hC⟩ := h
  have e0 : (arg2.view.readAt (Elt Ideal) (Rect.unit (s := S512x3) ![0, 0] S512x3.size Facts₀.inb_S512x3_S512x3_0_0).toLoadRect (harg2.unread x0)) = x0 := load_unread arg2 harg2 _ hz2 _ x0
  have e1 : arg3.view.read (Elt Ideal) (harg3.unread x1) = x1 := harg3.read_unread x1
  refine ⟨fun r u z => (hR r u z).trans ?_, fun u mc z => (hC u mc z).trans ?_⟩
  · rw [e0, e1, pay2_apply, pinf_eq_top]
    exact ⟨fun h mc => h.2 mc (by have := mc.isLt; omega), fun h => ⟨le_top, fun mc _ => h mc⟩⟩
  · rw [e0, e1]
    exact and_congr Iff.rfl ⟨fun h => h (by have := mc.isLt; omega), fun h _ => h⟩

/-- The filled scratch row reads +∞. -/
theorem filled_apply (y : S1x16384.Idx) : arg6.view.read (Elt Ideal) (filled (F := Ideal) arg6) y = (⊤ : EReal) := by
  unfold filled
  rw [read_whole_cons arg6.view arg6.view.junk _ hz2, pay1_apply, pinf_eq_top]

/-- Not the first point of its core: the row block. -/
theorem outB_row (hc0 : ¬cond0_0 i) (xs0 : Vec Ideal S1x16384 .f32) (u1 u2 : Fin 1) (r : Fin 512) (z : EReal) :
    z ≤ out0_B_2 c i arg2 harg2 arg3 harg3 arg4 harg4 arg5 harg5 arg6 harg6 hc0 x0 x1 xs0 (ix3 u1 u2 r) ↔ ∀ mc : Fin 16384, z ≤ dBlk x0 x1 r mc := by
  unfold out0_B_2
  rw [runB_1, read_whole_cons VO0_2 VO0_2.junk _ hz3, pay6_apply]
  exact (exit_lb c i arg2 harg2 arg3 harg3 arg4 harg4 arg5 harg5 arg6 harg6 x0 x1 (harg6.unread xs0)).1 r 0 z

/-- Not the first point of its core: the column block. -/
theorem outB_col (hc0 : ¬cond0_0 i) (xs0 : Vec Ideal S1x16384 .f32) (u1 u2 : Fin 1) (mc : Fin 16384) (z : EReal) :
    z ≤ out0_B_3 c i arg2 harg2 arg3 harg3 arg4 harg4 arg5 harg5 arg6 harg6 hc0 x0 x1 xs0 (ix3 u1 u2 mc) ↔ z ≤ xs0 (ix2 u2 mc) ∧ ∀ r : Fin 512, z ≤ dBlk x0 x1 r mc := by
  unfold out0_B_3
  rw [runB_2, read_whole_cons VO0_3 VO0_3.junk _ hz3, pay7_apply, View.readAt_eq_ld, View.ld_unit_zero (S := S1x16384) hz2]
  refine ((exit_lb c i arg2 harg2 arg3 harg3 arg4 harg4 arg5 harg5 arg6 harg6 x0 x1 (harg6.unread xs0)).2 u2 mc z).trans ?_
  rw [harg6.read_unread]

/-- Not the first point of its core: the scratch row. -/
theorem soutB (hc0 : ¬cond0_0 i) (xs0 : Vec Ideal S1x16384 .f32) (u : Fin 1) (mc : Fin 16384) (z : EReal) :
    z ≤ sout0_B_0 c i arg2 harg2 arg3 harg3 arg4 harg4 arg5 harg5 arg6 harg6 hc0 x0 x1 xs0 (ix2 u mc) ↔ z ≤ xs0 (ix2 u mc) ∧ ∀ r : Fin 512, z ≤ dBlk x0 x1 r mc := by
  unfold sout0_B_0
  rw [View.read_writes_of_cover VS0_0 VS0_0.junk arg6.view (harg6.unread xs0) _ (scover0_B_0 c i arg2 harg2 arg3 harg3 arg4 harg4 arg5 harg5 arg6 harg6 hc0 x0 x1 xs0), runB_3]
  refine ((exit_lb c i arg2 harg2 arg3 harg3 arg4 harg4 arg5 harg5 arg6 harg6 x0 x1 (harg6.unread xs0)).2 u mc z).trans ?_
  rw [harg6.read_unread]

/-- The first point of a core: the row block. -/
theorem outA_row (hc0 : cond0_0 i) (u1 u2 : Fin 1) (r : Fin 512) (z : EReal) :
    z ≤ out0_A_2 c i arg2 harg2 arg3 harg3 arg4 harg4 arg5 harg5 arg6 harg6 hc0 x0 x1 (ix3 u1 u2 r) ↔ ∀ mc : Fin 16384, z ≤ dBlk x0 x1 r mc := by
  unfold out0_A_2
  rw [runA_1, read_whole_cons VO0_2 VO0_2.junk _ hz3, pay6_apply]
  exact (exit_lb c i arg2 harg2 arg3 harg3 arg4 harg4 arg5 harg5 arg6 harg6 x0 x1 (filled (F := Ideal) arg6)).1 r 0 z

/-- The first point of a core: the column block. -/
theorem outA_col (hc0 : cond0_0 i) (u1 u2 : Fin 1) (mc : Fin 16384) (z : EReal) :
    z ≤ out0_A_3 c i arg2 harg2 arg3 harg3 arg4 harg4 arg5 harg5 arg6 harg6 hc0 x0 x1 (ix3 u1 u2 mc) ↔ ∀ r : Fin 512, z ≤ dBlk x0 x1 r mc := by
  unfold out0_A_3
  rw [runA_2, read_whole_cons VO0_3 VO0_3.junk _ hz3, pay7_apply, View.readAt_eq_ld, View.ld_unit_zero (S := S1x16384) hz2,
    View.writes_append]
  refine ((exit_lb c i arg2 harg2 arg3 harg3 arg4 harg4 arg5 harg5 arg6 harg6 x0 x1 (filled (F := Ideal) arg6)).2 u2 mc z).trans ?_
  rw [filled_apply]
  exact ⟨fun h => h.2, fun h => ⟨le_top, h⟩⟩

/-- The first point of a core: the scratch row. -/
theorem soutA (hc0 : cond0_0 i) (u : Fin 1) (mc : Fin 16384) (z : EReal) :
    z ≤ sout0_A_0 c i arg2 harg2 arg3 harg3 arg4 harg4 arg5 harg5 arg6 harg6 hc0 x0 x1 (ix2 u mc) ↔ ∀ r : Fin 512, z ≤ dBlk x0 x1 r mc := by
  unfold sout0_A_0
  rw [View.read_writes_of_cover VS0_0 VS0_0.junk arg6.view arg6.view.junk _ (scover0_A_0 c i arg2 harg2 arg3 harg3 arg4 harg4 arg5 harg5 arg6 harg6 hc0 x0 x1), runA_3,
    View.writes_append]
  refine ((exit_lb c i arg2 harg2 arg3 harg3 arg4 harg4 arg5 harg5 arg6 harg6 x0 x1 (filled (F := Ideal) arg6)).2 u mc z).trans ?_
  rw [filled_apply]
  exact ⟨fun h => h.2, fun h => ⟨le_top, h⟩⟩

end Val

end Cert.KernelIdeal.Pieces

end
-- ==== Proof.PointsVal.lean ====
/-
  The grid's 32 points, 16 per core.  Point t takes rows 512·t … 512·t + 511 of the left array and the whole right
  array.  Its row block holds, at row r, the minimum over all columns of the distance from row 512·t + r.  The scratch
  row is refilled at the first point of a core and then accumulates, so after point t it holds, at column c, the minimum
  of the distances from the rows 512·16·(t / 16) … 512·(t + 1) − 1; the column block is a copy of it.
  Minima are stated by their lower bounds.
-/
import proofs.«101809_j9861244912360_2_alg».proof.Proof.Pieces

set_option maxRecDepth 16384

noncomputable section

namespace Cert.KernelIdeal.PointsVal

open Idealize.ShloMosaic Idealize.ShloMosaic.TcCoe Idealize.SL.Sem Idealize.ShloMosaic.ValueIdx
open Cert.KernelIdeal Cert.KernelIdeal.Gen Cert.Chamfer Cert.KernelIdeal.Pieces

variable (m : (ℓ : Loc nD τ sig) → Buf (Elt Ideal) ℓ)

/-- The printed index maps, decided over the grid. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0 :=
  (by decide +kernel : ∀ t : Fin grid0.N, _)

/-- The left array's block at point `t`: rows `512·t …`. -/
theorem iblk0_apply (c : Dev nD) (t : Fin cfg0.N) (r : Fin 512) (k : Fin 3) (n : Fin 16384) (hn : n.val = 512 * t.val + r.val) :
    iblk m c 0 t (ix2 r k) = V m c main_arg0 (ix2 n k) := by
  obtain ⟨e0, e1, -⟩ := idx_facts t
  show V m c main_arg0 (((cfg0.win 0).blk t).view.emb (ix2 r k)) = V m c main_arg0 (ix2 n k)
  refine congrArg (V m c main_arg0) (funext fun a => Fin.ext ?_)
  match a with
  | ⟨0, _⟩ => show win0_0.index t (0 : Fin 2) * 512 + 1 * r.val = n.val; omega
  | ⟨1, _⟩ => show win0_0.index t (1 : Fin 2) * 3 + 1 * k.val = k.val; omega

/-- The right array's block at any point: the whole array. -/
theorem iblk1_apply (c : Dev nD) (t : Fin cfg0.N) (k : Fin 3) (mc : Fin 16384) :
    iblk m c 1 t (ix2 k mc) = V m c main_v0 (ix2 k mc) := by
  obtain ⟨-, -, e0, e1, -⟩ := idx_facts t
  show V m c main_v0 (((cfg0.win 1).blk t).view.emb (ix2 k mc)) = V m c main_v0 (ix2 k mc)
  refine congrArg (V m c main_v0) (funext fun a => Fin.ext ?_)
  match a with
  | ⟨0, _⟩ => show win0_1.index t (0 : Fin 2) * 3 + 1 * k.val = k.val; omega
  | ⟨1, _⟩ => show win0_1.index t (1 : Fin 2) * 16384 + 1 * mc.val = mc.val; omega

/-- The distance from row `r` of point `t`'s block is the distance from row `512·t + r` of the array. -/
theorem dBlk_point (c : Dev nD) (t : Fin cfg0.N) (r : Fin 512) (mc : Fin 16384) (n : Fin 16384) (hn : n.val = 512 * t.val + r.val) :
    dBlk (iblk m c 0 t) (iblk m c 1 t) r mc = dBlk (V m c main_arg0) (V m c main_v0) n mc := by
  unfold dBlk
  simp only [iblk0_apply m c t r _ n hn, iblk1_apply]

/-- Below the distances from all 512 rows of point `t`'s block: below the distances from rows `512·t … 512·t + 511`. -/
theorem block_rows_iff (c : Dev nD) (t : Fin cfg0.N) (mc : Fin 16384) (z : EReal) :
    (∀ r : Fin 512, z ≤ dBlk (iblk m c 0 t) (iblk m c 1 t) r mc) ↔
      ∀ nn : Fin 16384, 512 * t.val ≤ nn.val ∧ nn.val < 512 * (t.val + 1) → z ≤ dBlk (V m c main_arg0) (V m c main_v0) nn mc := by
  have hN : t.val < 32 := lt_of_lt_of_eq t.isLt (show cfg0.N = 32 from N_0)
  constructor
  · intro h nn hnn
    rw [← dBlk_point m c t ⟨nn.val - 512 * t.val, by omega⟩ mc nn (by show nn.val = 512 * t.val + (nn.val - 512 * t.val); omega)]
    exact h _
  · intro h r
    have hr := r.isLt
    rw [dBlk_point m c t r mc ⟨512 * t.val + r.val, by omega⟩ rfl]
    exact h _ ⟨by show 512 * t.val ≤ 512 * t.val + r.val; omega, by show 512 * t.val + r.val < 512 * (t.val + 1); omega⟩

/-- Two adjacent ranges of rows make one. -/
theorem range_split (P : Fin 16384 → Prop) (lo mid hi : ℕ) (h1 : lo ≤ mid) (h2 : mid ≤ hi) :
    ((∀ nn : Fin 16384, lo ≤ nn.val ∧ nn.val < mid → P nn) ∧ (∀ nn : Fin 16384, mid ≤ nn.val ∧ nn.val < hi → P nn)) ↔
      ∀ nn : Fin 16384, lo ≤ nn.val ∧ nn.val < hi → P nn := by
  constructor
  · rintro ⟨ha, hb⟩ nn hnn
    by_cases h : nn.val < mid
    · exact ha nn ⟨hnn.1, h⟩
    · exact hb nn ⟨by omega, hnn.2⟩
  · intro h
    exact ⟨fun nn hnn => h nn ⟨hnn.1, by omega⟩, fun nn hnn => h nn ⟨by omega, hnn.2⟩⟩

/-- The three things a point leaves, at the first point of a core. -/
theorem caseA (c : Dev nD) (t : Fin cfg0.N) (h0 : t.val % 16 = 0) :
    (∀ (u1 u2 : Fin 1) (r : Fin 512) (nn : Fin 16384) (_ : nn.val = 512 * t.val + r.val) (z : EReal),
        z ≤ (outsAt0 m c t.val t.isLt).1 (ix3 u1 u2 r) ↔ ∀ mc : Fin 16384, z ≤ dBlk (V m c main_arg0) (V m c main_v0) nn mc) ∧
    (∀ (u1 u2 : Fin 1) (mc : Fin 16384) (z : EReal),
        z ≤ (outsAt0 m c t.val t.isLt).2.1 (ix3 u1 u2 mc) ↔
        ∀ nn : Fin 16384, 512 * (16 * (t.val / 16)) ≤ nn.val ∧ nn.val < 512 * (t.val + 1) → z ≤ dBlk (V m c main_arg0) (V m c main_v0) nn mc) ∧
    (∀ (u : Fin 1) (mc : Fin 16384) (z : EReal),
        z ≤ (outsAt0 m c t.val t.isLt).2.2 (ix2 u mc) ↔
        ∀ nn : Fin 16384, 512 * (16 * (t.val / 16)) ≤ nn.val ∧ nn.val < 512 * (t.val + 1) → z ≤ dBlk (V m c main_arg0) (V m c main_v0) nn mc) := by
  rw [outsAt0_A m c t h0]
  dsimp only
  have hlo : 512 * (16 * (t.val / 16)) = 512 * t.val := by omega
  rw [hlo]
  refine ⟨fun u1 u2 r nn hnn z => ?_, fun u1 u2 mc z => ?_, fun u mc z => ?_⟩
  · exact (outA_row c (grid0.coords t) (ms0_0 t) (hs0_0 t) (ms0_1 t) (hs0_1 t) (ms0_2 t) (hs0_2 t) (ms0_3 t) (hs0_3 t) scM0_0 (Memref.isWhole_whole _) (iblk m c 0 t) (iblk m c 1 t) ((hcond0_0 t).mpr h0) u1 u2 r z).trans
      (forall_congr' fun mc => by rw [dBlk_point m c t r mc nn hnn])
  · exact (outA_col c (grid0.coords t) (ms0_0 t) (hs0_0 t) (ms0_1 t) (hs0_1 t) (ms0_2 t) (hs0_2 t) (ms0_3 t) (hs0_3 t) scM0_0 (Memref.isWhole_whole _) (iblk m c 0 t) (iblk m c 1 t) ((hcond0_0 t).mpr h0) u1 u2 mc z).trans
      (block_rows_iff m c t mc z)
  · exact (soutA c (grid0.coords t) (ms0_0 t) (hs0_0 t) (ms0_1 t) (hs0_1 t) (ms0_2 t) (hs0_2 t) (ms0_3 t) (hs0_3 t) scM0_0 (Memref.isWhole_whole _) (iblk m c 0 t) (iblk m c 1 t) ((hcond0_0 t).mpr h0) u mc z).trans
      (block_rows_iff m c t mc z)

/-- The three things a point leaves, at a later point of a core, given what the scratch row held before it. -/
theorem caseB (c : Dev nD) (t : Fin cfg0.N) (h0 : ¬t.val % 16 = 0)
    (ih : ∀ (u : Fin 1) (mc : Fin 16384) (z : EReal),
        z ≤ (outsAt0 m c (t.val - 1) (Nat.lt_of_le_of_lt (Nat.sub_le _ _) t.isLt)).2.2 (ix2 u mc) ↔
        ∀ nn : Fin 16384, 512 * (16 * ((t.val - 1) / 16)) ≤ nn.val ∧ nn.val < 512 * (t.val - 1 + 1) → z ≤ dBlk (V m c main_arg0) (V m c main_v0) nn mc) :
    (∀ (u1 u2 : Fin 1) (r : Fin 512) (nn : Fin 16384) (_ : nn.val = 512 * t.val + r.val) (z : EReal),
        z ≤ (outsAt0 m c t.val t.isLt).1 (ix3 u1 u2 r) ↔ ∀ mc : Fin 16384, z ≤ dBlk (V m c main_arg0) (V m c main_v0) nn mc) ∧
    (∀ (u1 u2 : Fin 1) (mc : Fin 16384) (z : EReal),
        z ≤ (outsAt0 m c t.val t.isLt).2.1 (ix3 u1 u2 mc) ↔
        ∀ nn : Fin 16384, 512 * (16 * (t.val / 16)) ≤ nn.val ∧ nn.val < 512 * (t.val + 1) → z ≤ dBlk (V m c main_arg0) (V m c main_v0) nn mc) ∧
    (∀ (u : Fin 1) (mc : Fin 16384) (z : EReal),
        z ≤ (outsAt0 m c t.val t.isLt).2.2 (ix2 u mc) ↔
        ∀ nn : Fin 16384, 512 * (16 * (t.val / 16)) ≤ nn.val ∧ nn.val < 512 * (t.val + 1) → z ≤ dBlk (V m c main_arg0) (V m c main_v0) nn mc) := by
  rw [outsAt0_B m c t h0]
  dsimp only
  have hlo : 512 * (16 * ((t.val - 1) / 16)) = 512 * (16 * (t.val / 16)) := by omega
  have hmid : 512 * (t.val - 1 + 1) = 512 * t.val := by omega
  rw [hlo, hmid] at ih
  refine ⟨fun u1 u2 r nn hnn z => ?_, fun u1 u2 mc z => ?_, fun u mc z => ?_⟩
  · exact (outB_row c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (fun h => h0 ((hcond0_0 t).mp h))
      (outsAt0 m c (t.val - 1) (Nat.lt_of_le_of_lt (Nat.sub_le _ _) t.isLt)).2.2 u1 u2 r z).trans
      (forall_congr' fun mc => by rw [dBlk_point m c t r mc nn hnn])
  · refine (outB_col c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (fun h => h0 ((hcond0_0 t).mp h))
      (outsAt0 m c (t.val - 1) (Nat.lt_of_le_of_lt (Nat.sub_le _ _) t.isLt)).2.2 u1 u2 mc z).trans ?_
    rw [ih u2 mc z, block_rows_iff m c t mc z]
    exact range_split _ _ _ _ (by omega) (by omega)
  · refine (soutB c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (fun h => h0 ((hcond0_0 t).mp h))
      (outsAt0 m c (t.val - 1) (Nat.lt_of_le_of_lt (Nat.sub_le _ _) t.isLt)).2.2 u mc z).trans ?_
    rw [ih u mc z, block_rows_iff m c t mc z]
    exact range_split _ _ _ _ (by omega) (by omega)

/-- THE POINTS, one after the other. -/
theorem point_lb (c : Dev nD) (n : ℕ) (hn : n < cfg0.N) :
    (∀ (u1 u2 : Fin 1) (r : Fin 512) (nn : Fin 16384) (_ : nn.val = 512 * n + r.val) (z : EReal),
        z ≤ (outsAt0 m c n hn).1 (ix3 u1 u2 r) ↔ ∀ mc : Fin 16384, z ≤ dBlk (V m c main_arg0) (V m c main_v0) nn mc) ∧
    (∀ (u1 u2 : Fin 1) (mc : Fin 16384) (z : EReal),
        z ≤ (outsAt0 m c n hn).2.1 (ix3 u1 u2 mc) ↔
        ∀ nn : Fin 16384, 512 * (16 * (n / 16)) ≤ nn.val ∧ nn.val < 512 * (n + 1) → z ≤ dBlk (V m c main_arg0) (V m c main_v0) nn mc) ∧
    (∀ (u : Fin 1) (mc : Fin 16384) (z : EReal),
        z ≤ (outsAt0 m c n hn).2.2 (ix2 u mc) ↔
        ∀ nn : Fin 16384, 512 * (16 * (n / 16)) ≤ nn.val ∧ nn.val < 512 * (n + 1) → z ≤ dBlk (V m c main_arg0) (V m c main_v0) nn mc) := by
  induction n with
  | zero => exact caseA m c ⟨0, hn⟩ rfl
  | succ k ih =>
    by_cases h0 : (k + 1) % 16 = 0
    · exact caseA m c ⟨k + 1, hn⟩ h0
    · exact caseB m c ⟨k + 1, hn⟩ h0 (ih (Nat.lt_of_succ_lt hn)).2.2

end Cert.KernelIdeal.PointsVal

end
-- ==== Proof.Arrays.lean ====
/-
  The two output arrays after the run.  The row array [32, 1, 512] holds at (g, ·, r) the minimum over all columns of the
  distance from row 512·g + r.  The column array [2, 1, 16384] is written back once per core, after the core's last
  point, and holds at (h, ·, c) the minimum of the distances to column c from the rows 8192·h … 8192·h + 8191.
-/
import proofs.«101809_j9861244912360_2_alg».proof.Proof.PointsVal

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen Cert.Chamfer Cert.KernelIdeal.PointsVal

/-- The row an entry of the row array speaks of. -/
def rowOf (j : S32x1x512.Idx) : Fin 16384 :=
  ⟨512 * (j 0).val + (j 2).val, by
    have h0 : (j 0).val < 32 := (j 0).isLt
    have h2 : (j 2).val < 512 := (j 2).isLt
    omega⟩

/-- The row array: minima over all columns. -/
def rowArr (A : S16384x3.Idx → EReal) (Bt : S3x16384.Idx → EReal) : S32x1x512.Idx → EReal :=
  fun j => ⨅ mc : Fin 16384, dBlk A Bt (rowOf j) mc

/-- The column array: per core, minima over that core's half of the rows. -/
def colArr (A : S16384x3.Idx → EReal) (Bt : S3x16384.Idx → EReal) : S2x1x16384.Idx → EReal :=
  fun j => ⨅ (nn : Fin 16384) (_ : 8192 * (j 0).val ≤ nn.val ∧ nn.val < 8192 * ((j 0).val + 1)), dBlk A Bt nn (j 2)

variable (m : (ℓ : Loc nD τ sig) → Buf (Elt Ideal) ℓ)

/-- What point `t` writes back of the row array is its block of `rowArr`. -/
theorem flushed2_eq (c : Dev nD) (t : Fin cfg0.N) :
    (dats m 0 c).flushed 2 t = ((cfg0.win 2).blk t).view.read (Elt Ideal) (rowArr (V m c main_arg0) (V m c main_v0)) := by
  show (cfg0.win 2).cut (grid0.coords t) ((dats m 0 c).after 2 t) = _
  rw [after0_2]
  obtain ⟨-, -, -, -, e0, e1, e2, -⟩ := idx_facts t
  have hN : t.val < 32 := lt_of_lt_of_eq t.isLt (show cfg0.N = 32 from N_0)
  refine funext fun (j : S1x1x512.Idx) => ?_
  obtain ⟨u1, u2, r, rfl⟩ : ∃ (u1 u2 : Fin 1) (r : Fin 512), j = ix3 u1 u2 r := ⟨j 0, j 1, j 2, eq_ix3 j⟩
  show (outsAt0 m c t.val t.isLt).1 (ix3 u1 u2 r)
    = rowArr (V m c main_arg0) (V m c main_v0) (((cfg0.win 2).blk t).view.emb (ix3 u1 u2 r))
  have hr := r.isLt
  have hrow : rowOf (((cfg0.win 2).blk t).view.emb (ix3 u1 u2 r)) = ⟨512 * t.val + r.val, by omega⟩ := Fin.ext (by
    show 512 * (win0_2.index t (0 : Fin 3) * 1 + 1 * u1.val) + (win0_2.index t (2 : Fin 3) * 512 + 1 * r.val) = 512 * t.val + r.val
    have hu : u1.val = 0 := by omega
    omega)
  refine eq_of_forall_le_iff fun z => ?_
  rw [(point_lb m c t.val t.isLt).1 u1 u2 r ⟨512 * t.val + r.val, by omega⟩ rfl z]
  unfold rowArr
  rw [le_iInf_iff, hrow]

/-- What a core's last point writes back of the column array is its block of `colArr`. -/
theorem flushed3_eq (c : Dev nD) (t : Fin cfg0.N) (hf : (cfg0.win 3).flush t = true) :
    (dats m 0 c).flushed 3 t = ((cfg0.win 3).blk t).view.read (Elt Ideal) (colArr (V m c main_arg0) (V m c main_v0)) := by
  have h15 : t.val % 16 = 15 := (flush0_3 t).mp hf
  show (cfg0.win 3).cut (grid0.coords t) ((dats m 0 c).after 3 t) = _
  rw [after0_3]
  obtain ⟨-, -, -, -, -, -, -, e0, e1, e2⟩ := idx_facts t
  have hN : t.val < 32 := lt_of_lt_of_eq t.isLt (show cfg0.N = 32 from N_0)
  refine funext fun (j : S1x1x16384.Idx) => ?_
  obtain ⟨u1, u2, mc, rfl⟩ : ∃ (u1 u2 : Fin 1) (mc : Fin 16384), j = ix3 u1 u2 mc := ⟨j 0, j 1, j 2, eq_ix3 j⟩
  show (outsAt0 m c t.val t.isLt).2.1 (ix3 u1 u2 mc)
    = colArr (V m c main_arg0) (V m c main_v0) (((cfg0.win 3).blk t).view.emb (ix3 u1 u2 mc))
  have hu : u1.val = 0 := by omega
  have h0 : ((((cfg0.win 3).blk t).view.emb (ix3 u1 u2 mc)) 0).val = t.val / 16 := by
    show win0_3.index t (0 : Fin 3) * 1 + 1 * u1.val = t.val / 16
    omega
  have h2 : (((cfg0.win 3).blk t).view.emb (ix3 u1 u2 mc)) 2 = mc := Fin.ext (by
    show win0_3.index t (2 : Fin 3) * 16384 + 1 * mc.val = mc.val
    omega)
  refine eq_of_forall_le_iff fun z => ?_
  rw [(point_lb m c t.val t.isLt).2.1 u1 u2 mc z]
  unfold colArr
  rw [le_iInf₂_iff, h0, h2]
  refine forall_congr' fun nn => imp_congr_left ?_
  constructor <;> intro h <;> omega

/-- An index of the row array is in point `t`'s block iff each coordinate is in the block's range. -/
theorem mem_blk2 (t : Fin cfg0.N) (i : S32x1x512.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v1_0).slice (win0_2.rect t)).set ↔ _
  rw [View.set_slice_whole, Rect.mem_set_unit]
  exact Iff.rfl

theorem mem_blk3 (t : Fin cfg0.N) (i : S2x1x16384.Idx) :
    i ∈ ((cfg0.win 3).blk t).view.set ↔ ∀ a : Fin 3, win0_3.index t a * S1x1x16384.size a ≤ (i a).val ∧ (i a).val < win0_3.index t a * S1x1x16384.size a + S1x1x16384.size a := by
  show i ∈ ((View.whole main_v1_1).slice (win0_3.rect t)).set ↔ _
  rw [View.set_slice_whole, Rect.mem_set_unit]
  exact Iff.rfl

/-- Every entry of the row array is in the block of the point its row group names. -/
theorem cover2 (i : S32x1x512.Idx) : ∃ t : Fin cfg0.N, (cfg0.win 2).flush t = true ∧ i ∈ ((cfg0.win 2).blk t).view.set := by
  have h0 : (i 0).val < 32 := (i 0).isLt
  have h1 : (i 1).val < 1 := (i 1).isLt
  have h2 : (i 2).val < 512 := (i 2).isLt
  have hN : cfg0.N = 32 := N_0
  obtain ⟨t, ht⟩ : ∃ t : Fin cfg0.N, t.val = (i 0).val := ⟨⟨(i 0).val, by omega⟩, rfl⟩
  obtain ⟨-, -, -, -, e0, e1, e2, -⟩ := idx_facts t
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 512 ≤ (i 2).val ∧ (i 2).val < win0_2.index t (2 : Fin 3) * 512 + 512; omega

/-- Every entry of the column array is in the block of its core's last point, which writes it back. -/
theorem cover3 (i : S2x1x16384.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 16384 := (i 2).isLt
  have hN : cfg0.N = 32 := N_0
  obtain ⟨t, ht⟩ : ∃ t : Fin cfg0.N, t.val = 16 * (i 0).val + 15 := ⟨⟨16 * (i 0).val + 15, by omega⟩, rfl⟩
  obtain ⟨-, -, -, -, -, -, -, e0, e1, e2⟩ := idx_facts t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 16384 ≤ (i 2).val ∧ (i 2).val < win0_3.index t (2 : Fin 3) * 16384 + 16384; omega

/-- THE ROW ARRAY after the run. -/
theorem final2 (c : Dev nD) : (dats m 0 c).arrAt 2 cfg0.N = rowArr (V m c main_arg0) (V m c main_v0) :=
  (dats m 0 c).arrAt_eq_of_cover 2 _ (fun t _ => flushed2_eq m c t) cover2

/-- THE COLUMN ARRAY after the run. -/
theorem final3 (c : Dev nD) : (dats m 0 c).arrAt 3 cfg0.N = colArr (V m c main_arg0) (V m c main_v0) :=
  (dats m 0 c).arrAt_eq_of_cover 3 _ (fun t hf => flushed3_eq m c t hf) cover3

end Cert.KernelIdeal.Arrays

end
-- ==== Proof.Mean.lean ====
/-
  The common tail of both programs: the mean of the column minima plus the mean of the row minima, each a sum over
  16384 entries divided by 16384.
-/
import Idealize.ShloMosaic.PureOps.Ideal.Laws

noncomputable section

namespace Cert.Chamfer

open Idealize.ShloMosaic

/-- Mean of `col` plus mean of `row`, as the host spells it. -/
def meanSum (h : (⟨1, ![16384]⟩ : Shape).ReducesTo [0] (⟨0, ![]⟩ : Shape)) (h0 : 0 < (⟨0, ![]⟩ : Shape).numel)
    (col row : FVec Ideal ⟨1, ![16384]⟩ .f32) : FVec Ideal ⟨0, ![]⟩ .f32 :=
  addf (F := Ideal)
    (Host.divf (F := Ideal) (Host.reduceAdd (F := Ideal) col (constant (F := Ideal) ⟨0, ![]⟩ .f32 0x00000000#32) h h0)
      (constant (F := Ideal) ⟨0, ![]⟩ .f32 0x46800000#32))
    (Host.divf (F := Ideal) (Host.reduceAdd (F := Ideal) row (constant (F := Ideal) ⟨0, ![]⟩ .f32 0x00000000#32) h h0)
      (constant (F := Ideal) ⟨0, ![]⟩ .f32 0x46800000#32))

end Cert.Chamfer

end
-- ==== Proof.HostTail.lean ====
/-
  The host operations around the kernel launch.  Before it the right array is transposed.  After it the row array is
  flattened to [16384]; the column array is flattened to [2, 16384] and reduced by minimum over its two rows (the two
  cores' halves of the left array's rows), which gives at column c the minimum over ALL rows; then the two means are added.
-/
import proofs.«101809_j9861244912360_2_alg».proof.Proof.Arrays
import proofs.«101809_j9861244912360_2_alg».proof.Proof.Mean
import Idealize.ShloMosaic.Lib.StableHlo.Run

set_option maxRecDepth 16384

noncomputable section

namespace Cert.KernelIdeal.HostTail

open Idealize.ShloMosaic Idealize.ShloMosaic.MinRead Idealize.ShloMosaic.TcCoe Idealize.SL.Sem Idealize.ShloMosaic.ValueIdx Idealize.ShloMosaic.StableHlo
open Cert.KernelIdeal Cert.KernelIdeal.Gen Cert.Chamfer Cert.KernelIdeal.Arrays Cert.KernelIdeal.Pay

/-- The row minima as a flat vector. -/
def rowK (A : S16384x3.Idx → EReal) (Bt : S3x16384.Idx → EReal) : S16384.Idx → EReal :=
  shapeCast S16384 (rowArr A Bt) Facts₀.shapeCasts_S32x1x512_S16384

/-- The column minima: the minimum of the two cores' partial minima. -/
def colK (A : S16384x3.Idx → EReal) (Bt : S3x16384.Idx → EReal) : S16384.Idx → EReal :=
  Host.reduce (FloatOps.minimumf (F := Ideal) (φ := .f32)) (shapeCast S2x16384 (colArr A Bt) Facts₀.shapeCasts_S2x1x16384_S2x16384)
    (constant (F := Ideal) S_ .f32 0x7F800000#32) Facts₀.reducesTo_S2x16384_S16384_d0 Facts₀.h_S_

/-- Below the kernel's row minimum at row `n`: below the distance to every column. -/
theorem rowK_le (A : S16384x3.Idx → EReal) (Bt : S3x16384.Idx → EReal) (n : Fin 16384) (z : EReal) :
    z ≤ rowK A Bt (ix1 n) ↔ ∀ mc : Fin 16384, z ≤ dBlk A Bt n mc := by
  unfold rowK
  have hn := n.isLt
  rw [shapeCast_apply (rowArr A Bt) _ (ix1 n)
    (ix3 (⟨n.val / 512, by omega⟩ : Fin 32) (0 : Fin 1) (⟨n.val % 512, by omega⟩ : Fin 512)) (by
      rw [Shape.rowMajor_val_three, Shape.rowMajor_val_one]
      show (n.val / 512 * 1 + 0) * 512 + n.val % 512 = n.val
      omega)]
  unfold rowArr
  rw [le_iInf_iff]
  have e : rowOf (ix3 (⟨n.val / 512, by omega⟩ : Fin 32) (0 : Fin 1) (⟨n.val % 512, by omega⟩ : Fin 512)) = n :=
    Fin.ext (by show 512 * (n.val / 512) + n.val % 512 = n.val; omega)
  rw [e]

/-- Below the kernel's column minimum at column `c`: below the distance from every row. -/
theorem colK_le (A : S16384x3.Idx → EReal) (Bt : S3x16384.Idx → EReal) (mc : Fin 16384) (z : EReal) :
    z ≤ colK A Bt (ix1 mc) ↔ ∀ nn : Fin 16384, z ≤ dBlk A Bt nn mc := by
  unfold colK
  have hR : S2x16384.Reduces [0] S16384 := by decide
  rw [Host.reduce_eq_fold_single (FloatOps.minimumf (F := Ideal) (φ := .f32)) _ _ Facts₀.reducesTo_S2x16384_S16384_d0 hR Facts₀.h_S_]
  refine (le_fold_min_top _ z).trans ?_
  have key : ∀ k : Fin (S2x16384.size 0), (shapeCast S2x16384 (colArr A Bt) Facts₀.shapeCasts_S2x1x16384_S2x16384 ∘
      hR.lift (ix1 mc)) k = colArr A Bt (ix3 (⟨k.val, k.isLt⟩ : Fin 2) (0 : Fin 1) mc) := fun k => by
    rw [Function.comp_apply, lift0_ix2]
    exact shapeCast_apply (colArr A Bt) _ _ (ix3 (⟨k.val, k.isLt⟩ : Fin 2) (0 : Fin 1) mc) (by
      rw [Shape.rowMajor_val_three, Shape.rowMajor_val_two]
      show (k.val * 1 + 0) * 16384 + mc.val = k.val * 16384 + mc.val
      omega)
  constructor
  · intro h nn
    have hnn := nn.isLt
    have hk := h ⟨nn.val / 8192, by show nn.val / 8192 < 2; omega⟩
    rw [key] at hk
    unfold colArr at hk
    rw [le_iInf₂_iff] at hk
    exact hk nn ⟨by show 8192 * (nn.val / 8192) ≤ nn.val; omega, by show nn.val < 8192 * (nn.val / 8192 + 1); omega⟩
  · intro h k
    rw [key]
    unfold colArr
    rw [le_iInf₂_iff]
    exact fun nn _ => h nn

variable (m : (ℓ : Loc nD τ sig) → Buf (Elt Ideal) ℓ)

/-- The right array as the region finds it: the transpose of the second argument. -/
theorem V_main_v0 (c : Dev nD) : (V m c main_v0 : S3x16384.Idx → Elt Ideal .f32)
    = transpose S3x16384 [1, 0] (m ((c : Thread nD τ).loc main_arg1)) Facts₀.transposes_S16384x3_S3x16384_1_0 := by
  show StableHlo.after hostOps0 (fun b => m (c, b)) (Proc.devRef .tc main_v0) = _
  after_results

/-- The result buffer after the host tail: the two means of the kernel's minima, added. -/
theorem tail_eq (c : Dev nD) :
    Pipeline.afterTail₀ cfgs (dats m) 0 (V0 m) [hostOps1] c main_v9
      = meanSum Facts₀.reducesTo_S16384_S_d0 Facts₀.h_S_ (colK (V m c main_arg0) (V m c main_v0)) (rowK (V m c main_arg0) (V m c main_v0)) := by
  unfold Pipeline.afterTail₀
  show StableHlo.after hostOps1 _ (Proc.devRef .tc main_v9) = _
  after_results
  have hw2 : Pipeline.withArrays (cfgs 0).spec c (V0 m c) (fun w => (dats m 0 c).arrAt w (cfgs 0).N) (Proc.tc.devRef main_v1_0)
      = rowArr (V m c main_arg0) (V m c main_v0) :=
    (Pipeline.withArrays_arr spec0 launch0.win.arr_inj c (V0 m c) (fun w => (dats m 0 c).arrAt w (cfgs 0).N) 2).trans (final2 m c)
  have hw3 : Pipeline.withArrays (cfgs 0).spec c (V0 m c) (fun w => (dats m 0 c).arrAt w (cfgs 0).N) (Proc.tc.devRef main_v1_1)
      = colArr (V m c main_arg0) (V m c main_v0) :=
    (Pipeline.withArrays_arr spec0 launch0.win.arr_inj c (V0 m c) (fun w => (dats m 0 c).arrAt w (cfgs 0).N) 3).trans (final3 m c)
  rw [hw2, hw3]
  unfold meanSum colK rowK
  rfl

/-- THE KERNEL'S RUN, read: the result buffer at the two means of its minima, the arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v9)
        = meanSum Facts₀.reducesTo_S16384_S_d0 Facts₀.h_S_ (colK (V m c main_arg0) (V m c main_v0)) (rowK (V m c main_arg0) (V m c main_v0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v9 (Pipeline.mem_restRefs_of main_v9 (by decide) (by decide))).trans (tail_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.HostTail

end
-- ==== Proof.RefValue.lean ====
/-
  The reference read at an index: its clamped distance matrix, its two minimum reductions by their lower bounds, and its
  result as the common tail (two means added) of the column minima and the row minima.
-/
import proofs.«101809_j9861244912360_2_alg».proof.Proof.Gen.ReferenceIdeal.Read
import proofs.«101809_j9861244912360_2_alg».proof.Proof.Spec

noncomputable section

namespace Cert.ReferenceIdeal.RefValue

open Idealize.ShloMosaic Idealize.ShloMosaic.MinRead Idealize.ShloMosaic.ValueIdx Cert.ReferenceIdeal Cert.ReferenceIdeal.Gen Cert.ReferenceIdeal.Read Cert.Chamfer
open scoped BigOperators

/-- Entry (n, c) of the reference's clamped distance matrix. -/
theorem v15_apply (x0 x1 : (⟨S16384x3, .f32⟩ : BufTy).Contents (Elt Ideal)) (n mc : Fin 16384) :
    val_main_v15 (F := Ideal) x0 x1 (ix2 n mc) = dBlk x0 (val_main_v4 (F := Ideal) x1) n mc := by
  rw [val_main_v15_apply, val_main_v13_apply, val_main_v10_apply, val_main_v8_apply, val_main_v6_apply, val_main_v1_apply,
    val_main_v9_apply, val_main_v7_apply, val_main_v3_apply, val_main_v12_apply, val_main_v11_apply, val_main_v5_apply,
    val_main_v14_apply]
  simp only [val_main_v0_apply, val_main_v2_apply, val_main_v4_apply, val_main_cst_apply, val_main_cst_0_apply,
    val_main_cst_1_apply, val_main_cst_2_apply]
  unfold dBlk
  simp only [val_main_v4_apply]
  have e1 : ∀ k : Fin 3, idx_main_v1 (idx_main_v6 (idx_main_v8 (ix2 n mc))) k = ix2 n k := fun k =>
    funext fun a => Fin.ext (by match a with | ⟨0, _⟩ => rfl | ⟨1, _⟩ => rfl)
  have e2 : ∀ k : Fin 3, idx_main_v3 (idx_main_v7 (idx_main_v9 (ix2 n mc))) k = idx_main_v4 (ix2 k mc) := fun k =>
    funext fun a => Fin.ext (by match a with | ⟨0, _⟩ => rfl | ⟨1, _⟩ => rfl)
  have e3 : ∀ k : Fin 3, lidx_main_v5 (ix2 n mc) k = ix2 n k := fun k =>
    funext fun a => Fin.ext (by match a with | ⟨0, _⟩ => rfl | ⟨1, _⟩ => rfl)
  have e4 : ∀ k : Fin 3, idx_main_v4 (ridx_main_v5 (ix2 n mc) k) = idx_main_v4 (ix2 k mc) := fun k =>
    funext fun a => Fin.ext (by match a with | ⟨0, _⟩ => rfl | ⟨1, _⟩ => rfl)
  simp only [e1, e2, e3, e4, Ideal.maximumf_def, Ideal.subf_def, Ideal.addf_def, Ideal.mulf_def, Ideal.ofBits_def,
    Ideal.ofBits_zero_f32, zero_add]

/-- Below the reference's minimum down column `c`: below every entry of the column. -/
theorem v16_le (x0 x1 : (⟨S16384x3, .f32⟩ : BufTy).Contents (Elt Ideal)) (mc : Fin 16384) (z : EReal) :
    z ≤ val_main_v16 (F := Ideal) x0 x1 (ix1 mc) ↔ ∀ n : Fin 16384, z ≤ dBlk x0 (val_main_v4 (F := Ideal) x1) n mc := by
  unfold val_main_v16
  rw [Host.reduce_eq_fold_single FloatOps.minimumf _ _ Facts₀.reducesTo_S16384x16384_S16384_d0 (by decide) Facts₀.h_S_]
  refine (le_fold_min_top _ z).trans (forall_congr' fun n => ?_)
  refine iff_of_eq (congrArg (fun y => z ≤ y) ?_)
  exact (congrArg (val_main_v15 (F := Ideal) x0 x1)
    (funext fun a => Fin.ext (by match a with | ⟨0, _⟩ => rfl | ⟨1, _⟩ => rfl))).trans (v15_apply x0 x1 n mc)

/-- Below the reference's minimum along row `n`: below every entry of the row. -/
theorem v19_le (x0 x1 : (⟨S16384x3, .f32⟩ : BufTy).Contents (Elt Ideal)) (n : Fin 16384) (z : EReal) :
    z ≤ val_main_v19 (F := Ideal) x0 x1 (ix1 n) ↔ ∀ mc : Fin 16384, z ≤ dBlk x0 (val_main_v4 (F := Ideal) x1) n mc := by
  unfold val_main_v19
  rw [Host.reduce_eq_fold_single FloatOps.minimumf _ _ Facts₀.reducesTo_S16384x16384_S16384_d1 (by decide) Facts₀.h_S_]
  refine (le_fold_min_top _ z).trans (forall_congr' fun mc => ?_)
  refine iff_of_eq (congrArg (fun y => z ≤ y) ?_)
  exact (congrArg (val_main_v15 (F := Ideal) x0 x1)
    (funext fun a => Fin.ext (by match a with | ⟨0, _⟩ => rfl | ⟨1, _⟩ => rfl))).trans (v15_apply x0 x1 n mc)

end Cert.ReferenceIdeal.RefValue

end
-- ==== Proof.lean ====
/-
  Chamfer distance of two clouds of 16384 points in ℝ³.  With d(n, c) = max ((|a_n|² + |b_c|²) − 2·⟨a_n, b_c⟩, 0),
  both programs compute  (Σ_c min_n d(n, c)) / 16384 + (Σ_n min_c d(n, c)) / 16384.

  The reference materialises the whole 16384 × 16384 matrix and reduces it twice.  The kernel walks 32 blocks of 512
  rows (16 per core); inside a block it walks 16 chunks of 1024 columns, keeping a running row minimum in a register
  and a running column minimum in a scratch row that is reset to +∞ at the first block of each core; the host then
  takes the minimum of the two cores' column minima.  On the extended reals every entry d(n, c) is the same term on
  both sides, and a minimum over a set of entries does not depend on how the set is cut into chunks, blocks and cores:
  each minimum is pinned down by its lower bounds (z ≤ min ↔ z ≤ every entry), so equal sets of entries give equal
  minima.  The two means are then the same function of equal vectors.  No finiteness is used: nothing is distributed
  or cancelled.
-/
import proofs.«101809_j9861244912360_2_alg».proof.Defs
import proofs.«101809_j9861244912360_2_alg».proof.Proof.Gen.Kernel
import proofs.«101809_j9861244912360_2_alg».proof.Proof.Gen.Kernel.Frame
import proofs.«101809_j9861244912360_2_alg».proof.Proof.Gen.KernelIdeal
import proofs.«101809_j9861244912360_2_alg».proof.Proof.Gen.KernelIdeal.Frame
import proofs.«101809_j9861244912360_2_alg».proof.Proof.Gen.ReferenceIdeal
import proofs.«101809_j9861244912360_2_alg».proof.Proof.Gen.Pre_finite_inputs
import proofs.«101809_j9861244912360_2_alg».proof.Proof.Gen.ReferenceIdeal.Run
import proofs.«101809_j9861244912360_2_alg».proof.Proof.Gen.ReferenceIdeal.Read
import proofs.«101809_j9861244912360_2_alg».proof.Proof.HostTail
import proofs.«101809_j9861244912360_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Chamfer

/-- The reference's result is the common tail of its two minimum reductions. -/
theorem ref_tail (x0 x1 : (⟨Cert.ReferenceIdeal.S16384x3, .f32⟩ : BufTy).Contents (Elt Ideal)) :
    Cert.ReferenceIdeal.Read.val_main_v22 (F := Ideal) x0 x1
      = meanSum Cert.ReferenceIdeal.Facts₀.reducesTo_S16384_S_d0 Cert.ReferenceIdeal.Facts₀.h_S_
          (Cert.ReferenceIdeal.Read.val_main_v16 (F := Ideal) x0 x1) (Cert.ReferenceIdeal.Read.val_main_v19 (F := Ideal) x0 x1) := rfl

/-- THE BRIDGE: the kernel's minima are the reference's, so the results are equal. -/
theorem bridge (x0 x1 : (⟨Cert.ReferenceIdeal.S16384x3, .f32⟩ : BufTy).Contents (Elt Ideal)) :
    meanSum Cert.KernelIdeal.Facts₀.reducesTo_S16384_S_d0 Cert.KernelIdeal.Facts₀.h_S_
        (Cert.KernelIdeal.HostTail.colK x0 (transpose Cert.KernelIdeal.S3x16384 [1, 0] x1 Cert.KernelIdeal.Facts₀.transposes_S16384x3_S3x16384_1_0))
        (Cert.KernelIdeal.HostTail.rowK x0 (transpose Cert.KernelIdeal.S3x16384 [1, 0] x1 Cert.KernelIdeal.Facts₀.transposes_S16384x3_S3x16384_1_0))
      = Cert.ReferenceIdeal.Read.val_main_v22 (F := Ideal) x0 x1 := by
  rw [ref_tail]
  have hc : Cert.KernelIdeal.HostTail.colK x0 (transpose Cert.KernelIdeal.S3x16384 [1, 0] x1 Cert.KernelIdeal.Facts₀.transposes_S16384x3_S3x16384_1_0)
      = Cert.ReferenceIdeal.Read.val_main_v16 (F := Ideal) x0 x1 := funext fun j => by
    rw [eq_ix1 j]
    exact eq_of_forall_le_iff fun z =>
      (Cert.KernelIdeal.HostTail.colK_le x0 _ (j 0) z).trans (Cert.ReferenceIdeal.RefValue.v16_le x0 x1 (j 0) z).symm
  have hr : Cert.KernelIdeal.HostTail.rowK x0 (transpose Cert.KernelIdeal.S3x16384 [1, 0] x1 Cert.KernelIdeal.Facts₀.transposes_S16384x3_S3x16384_1_0)
      = Cert.ReferenceIdeal.Read.val_main_v19 (F := Ideal) x0 x1 := funext fun j => by
    rw [eq_ix1 j]
    exact eq_of_forall_le_iff fun z =>
      (Cert.KernelIdeal.HostTail.rowK_le x0 _ (j 0) z).trans (Cert.ReferenceIdeal.RefValue.v19_le x0 x1 (j 0) z).symm
  rw [hc, hr]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end at the same number. -/
theorem algebraic : Cert.algebraic_KernelIdeal_ReferenceIdeal := by
  intro m ρ m' ρ' _ hagree
  refine ⟨fun c => meanSum Cert.KernelIdeal.Facts₀.reducesTo_S16384_S_d0 Cert.KernelIdeal.Facts₀.h_S_
      (Cert.KernelIdeal.HostTail.colK (Cert.KernelIdeal.Gen.V m c Cert.KernelIdeal.main_arg0) (Cert.KernelIdeal.Gen.V m c Cert.KernelIdeal.main_v0))
      (Cert.KernelIdeal.HostTail.rowK (Cert.KernelIdeal.Gen.V m c Cert.KernelIdeal.main_arg0) (Cert.KernelIdeal.Gen.V m c Cert.KernelIdeal.main_v0)),
    Cert.KernelIdeal.HostTail.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2]
  beta_reduce
  rw [Cert.KernelIdeal.HostTail.V_main_v0, Cert.KernelIdeal.Gen.V_main_arg0]
  exact (bridge _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
